-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩

abbrev nBuf : Space → Nat
  | .hbm => 48
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S128x128, .f32⟩
  | .hbm, ⟨45, _⟩ => ⟨S1x128, .f32⟩
  | .hbm, ⟨46, _⟩ => ⟨S1x128, .f32⟩
  | .hbm, ⟨47, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S128x128_S128x128 : S128x128.ShapeCasts S128x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v28) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x1, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S128x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x128_S128x128_1_0 : S128x128.Transposes [1, 0] S128x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.DenseSpec.lean ====
/-
  The dense half of a graph-convolution layer as a function on the extended reals.

  After the neighbourhood aggregation a node carries a row `a` of 128 aggregated features. The layer sends it through
  a linear map with bias, a rectifier, and a second linear map with bias:

      out j = (∑ k, max ((∑ l, a l · W l k) + b k) 0 · U k j) + d j

  with `W` the graph-convolution weight, `b` its bias, `U` the transposed weight of the final linear layer and `d`
  its bias. Each node's row is treated alone: the value at node `r` depends on row `r` of the aggregate and on
  nothing else of it, which is why cutting the nodes into blocks of rows changes nothing.

  `denseRow` is that formula for one row; `layer` is the whole node array, index by index, from the aggregate
  `h : [100000, 128]`, the weights `W, fcW : [128, 128]` (the second one as given, NOT transposed: `U k j = fcW (j, k)`)
  and the biases `b, fcb : [128]`. Nothing here mentions a program.
-/
import Idealize.ShloMosaic.PureOps.Ideal
import Idealize.ShloMosaic.Lib.ValueIdx

noncomputable section

namespace Cert.GcnDense

open Idealize.ShloMosaic Idealize.ShloMosaic.ValueIdx

/-- One node's output feature `j` from its aggregated row `a`: linear map and bias, rectifier, linear map and bias. -/
def denseRow (a : Fin 128 → EReal) (W : Fin 128 → Fin 128 → EReal) (b : Fin 128 → EReal)
    (U : Fin 128 → Fin 128 → EReal) (d : Fin 128 → EReal) (j : Fin 128) : EReal :=
  (∑ k : Fin 128, max ((∑ l : Fin 128, a l * W l k) + b k) 0 * U k j) + d j

/-- Two rows that agree entry by entry, through weights and biases that agree entry by entry, give the same output. -/
theorem denseRow_congr {a a' : Fin 128 → EReal} {W W' : Fin 128 → Fin 128 → EReal} {b b' : Fin 128 → EReal}
    {U U' : Fin 128 → Fin 128 → EReal} {d d' : Fin 128 → EReal} (j : Fin 128)
    (ha : ∀ l, a l = a' l) (hW : ∀ l k, W l k = W' l k) (hb : ∀ k, b k = b' k) (hU : ∀ k, U k j = U' k j) (hd : d j = d' j) :
    denseRow a W b U d j = denseRow a' W' b' U' d' j := by
  unfold denseRow
  rw [hd]
  refine congrArg (· + d' j) (Finset.sum_congr rfl fun k _ => ?_)
  rw [hU k, hb k]
  refine congrArg (fun s => max (s + b' k) 0 * U' k j) (Finset.sum_congr rfl fun l _ => ?_)
  rw [ha l, hW l k]

/-- The node array of the layer: at node `r` and feature `j`, `denseRow` of row `r` of the aggregate. -/
def layer (h : FVec Ideal ⟨2, ![100000, 128]⟩ .f32) (W : FVec Ideal ⟨2, ![128, 128]⟩ .f32) (b : FVec Ideal ⟨1, ![128]⟩ .f32)
    (fcW : FVec Ideal ⟨2, ![128, 128]⟩ .f32) (fcb : FVec Ideal ⟨1, ![128]⟩ .f32) : FVec Ideal ⟨2, ![100000, 128]⟩ .f32 :=
  fun i => denseRow (fun l => h (ix2 (n0 := 100000) (n1 := 128) (i 0) l)) (fun l k => W (ix2 l k)) (fun k => b (ix1 k))
    (fun k j => fcW (ix2 j k)) (fun j => fcb (ix1 j)) (i 1)

/-- The layer read at the index with coordinates `(r, j)`. -/
theorem layer_ix2 (h : FVec Ideal ⟨2, ![100000, 128]⟩ .f32) (W : FVec Ideal ⟨2, ![128, 128]⟩ .f32) (b : FVec Ideal ⟨1, ![128]⟩ .f32)
    (fcW : FVec Ideal ⟨2, ![128, 128]⟩ .f32) (fcb : FVec Ideal ⟨1, ![128]⟩ .f32) (r : Fin 100000) (j : Fin 128) :
    layer h W b fcW fcb (ix2 r j) = denseRow (fun l => h (ix2 r l)) (fun l k => W (ix2 l k)) (fun k => b (ix1 k))
      (fun k j => fcW (ix2 j k)) (fun j => fcb (ix1 j)) j := rfl

end Cert.GcnDense

end
-- ==== Proof.RefDense.lean ====
/-
  The reference's result, read at a node and a feature, is the dense layer of the specification.

  The reference computes the aggregate `h` (degree-normalised gather and scatter-add over the edges), then on the whole
  [100000, 128] array: `h · W` as a contraction over the 128 input features, plus the bias broadcast over the nodes, the
  maximum with a zero array, the contraction with the transposed final weight, plus the final bias. Read at (r, j)
  each step names one entry of its operands, the two contractions sums over `Fin 128`, so the whole is `denseRow` of
  row `r` of the aggregate. The aggregate itself is never opened: it enters as the one term `val_main_v28 x0 x1 x2`.
-/
import proofs.«128109_j8443905704045_1_alg».proof.Proof.Gen.ReferenceIdeal.Read
import proofs.«128109_j8443905704045_1_alg».proof.Proof.DenseSpec

noncomputable section

namespace Cert.ReferenceIdeal.RefValue

open Cert.ReferenceIdeal Cert.ReferenceIdeal.Read Idealize.ShloMosaic Idealize.ShloMosaic.ValueIdx Cert.GcnDense

/-- The reference's result at node `r`, feature `j`. -/
theorem result_at (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (r : Fin 100000) (j : Fin 128) :
    val_main_v38 (F := Ideal) x0 x1 x2 x3 x4 x5 x6 (ix2 r j)
      = denseRow (fun l => val_main_v28 (F := Ideal) x0 x1 x2 (ix2 r l)) (fun l k => x3 (ix2 l k)) (fun k => x4 (ix1 k))
          (fun k j => x5 (ix2 j k)) (fun j => x6 (ix1 j)) j := by
  -- the indices each operation reads, in coordinates
  have eL35 : ∀ k : Fin 128, lidx_main_v35 (ix2 r j) k = ix2 r k :=
    fun k => funext fun a => by match a with | ⟨0, _⟩ => rfl | ⟨1, _⟩ => rfl
  have eR35 : ∀ k : Fin 128, idx_main_v34 (ridx_main_v35 (ix2 r j) k) = ix2 j k :=
    fun k => funext fun a => by match a with | ⟨0, _⟩ => rfl | ⟨1, _⟩ => rfl
  have eL29 : ∀ k l : Fin 128, lidx_main_v29 (ix2 r k) l = ix2 r l :=
    fun k l => funext fun a => by match a with | ⟨0, _⟩ => rfl | ⟨1, _⟩ => rfl
  have eR29 : ∀ k l : Fin 128, ridx_main_v29 (ix2 r k) l = ix2 l k :=
    fun k l => funext fun a => by match a with | ⟨0, _⟩ => rfl | ⟨1, _⟩ => rfl
  have eB : ∀ k : Fin 128, idx_main_v30 (idx_main_v31 (ix2 r k)) = ix1 k :=
    fun k => funext fun a => by match a with | ⟨0, _⟩ => rfl
  have eD : idx_main_v36 (idx_main_v37 (ix2 r j)) = ix1 j :=
    funext fun a => by match a with | ⟨0, _⟩ => rfl
  rw [val_main_v38_apply, val_main_v35_apply, val_main_v37_apply, val_main_v36_apply, eD]
  unfold denseRow
  refine congrArg (· + x6 (ix1 j)) (Finset.sum_congr rfl fun k _ => ?_)
  rw [eL35 k, val_main_v34_apply, eR35 k, val_main_v33_apply, val_main_v32_apply, val_main_v29_apply, val_main_v31_apply,
    val_main_v30_apply, eB k, val_main_call0_v0_apply, val_main_call0_cst_apply]
  simp only [eL29, eR29]
  show max ((∑ l : Fin 128, val_main_v28 (F := Ideal) x0 x1 x2 (ix2 r l) * x3 (ix2 l k)) + x4 (ix1 k)) (Ideal.ofBits .f32 0x00000000#32) * x5 (ix2 j k) = _
  rw [Ideal.ofBits_zero_f32]

/-- The reference's result array is the layer of the aggregate and the four parameter arrays. -/
theorem result_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v38 (F := Ideal) x0 x1 x2 x3 x4 x5 x6 = layer (val_main_v28 (F := Ideal) x0 x1 x2) x3 x4 x5 x6 := by
  funext i
  obtain ⟨r, j, rfl⟩ : ∃ (r : Fin 100000) (j : Fin 128), i = ix2 r j := ⟨i 0, i 1, eq_ix2 i⟩
  exact result_at x0 x1 x2 x3 x4 x5 x6 r j

end Cert.ReferenceIdeal.RefValue

end
-- ==== Proof.BodyDense.lean ====
/-
  What the kernel body stores, read at a row and a column of its block.

  The body loads a block of 2000 node rows `x0`, the whole weight `x1`, the bias `x2` as a [1, 128] row, the
  transposed final weight `x3` and the final bias `x4` as a [1, 128] row, and stores

      (relu (x0 · x1 + x2)) · x3 + x4

  over the whole block, the two products accumulated from zero on the matrix unit after a change of format that is
  the identity on extended reals. A product into the zero accumulator, read at (p, q), is the sum over the 128
  contracted coordinates of the operands' entries; a [1, 128] row broadcast over the block reads its entry at the
  column. So the stored value at (p, q) is `denseRow` of row `p` of the loaded block.
-/
import proofs.«128109_j8443905704045_1_alg».proof.Proof.Gen.KernelIdeal.Skeleton
import proofs.«128109_j8443905704045_1_alg».proof.Proof.DenseSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.GcnDense

/-- The row coordinate of the left operand's entry is the output's row. -/
theorem lhs_row (i : S2000x128.Idx) (s : dot_S2000x128_S128x128_S2000x128_1_0_0_1_n_n.contr.Idx) :
    (dot_S2000x128_S128x128_S2000x128_1_0_0_1_n_n.lhsIdx i s 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- The column coordinate of the right operand's entry is the output's column. -/
theorem rhs_col (i : S2000x128.Idx) (s : dot_S2000x128_S128x128_S2000x128_1_0_0_1_n_n.contr.Idx) :
    (dot_S2000x128_S128x128_S2000x128_1_0_0_1_n_n.rhsIdx i s 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A [2000, 128] block times a [128, 128] matrix into the zero accumulator, at (p, q): the sum over the contracted
    coordinate `k` of the block's (p, k) entry times the matrix's (k, q) entry. -/
theorem matmul_at {φ₁ φ₂ : FTy} (A : FVec Ideal S2000x128 φ₁) (B : FVec Ideal S128x128 φ₂) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  refine (Ideal.matmul_constant_zero_apply dot_S2000x128_S128x128_S2000x128_1_0_0_1_n_n none A B (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (dot_S2000x128_S128x128_S2000x128_1_0_0_1_n_n.lhsIdx_val_of_single rfl _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl _ _).trans hk
    | ⟨1, _⟩ => exact rhs_col _ _)
  rw [el, er]

/-- A [1, 128] row, cast to its own shape and broadcast over the block, reads its entry at the column. -/
theorem row_at (v : Vec Ideal S1x128 .f32) (hc : S1x128.ShapeCasts S1x128) (hb : S1x128.Broadcasts S2000x128) (p : Fin 2000) (q : Fin 128) :
    broadcastTo S2000x128 (shapeCast S1x128 v hc) hb (ix2 p q) = v (ix2 (0 : Fin 1) q) := by
  rw [shapeCast_self]
  exact broadcastTo_1b_ab_apply v hb p q

/-- The stored block at (p, q) is the dense layer of row `p` of the loaded block of nodes. -/
theorem stored_at (x0 : Vec Ideal S2000x128 .f32) (x1 : Vec Ideal S128x128 .f32) (x2 : Vec Ideal S1x128 .f32)
    (x3 : Vec Ideal S128x128 .f32) (x4 : Vec Ideal S1x128 .f32) (p : Fin 2000) (q : Fin 128) :
    k0_pay1 (F := Ideal) x0 x1 x2 x3 x4 (ix2 p q)
      = denseRow (fun l => x0 (ix2 p l)) (fun l k => x1 (ix2 l k)) (fun k => x2 (ix2 (0 : Fin 1) k))
          (fun k j => x3 (ix2 k j)) (fun j => x4 (ix2 (0 : Fin 1) j)) q := by
  unfold k0_pay1 denseRow
  dsimp only
  rw [ValueIdx.addf_apply, matmul_at, row_at]
  refine congrArg (· + x4 (ix2 (0 : Fin 1) q)) (Finset.sum_congr rfl fun k _ => ?_)
  rw [ValueIdx.truncf_apply, ValueIdx.maximumf_apply, ValueIdx.addf_apply, matmul_at, row_at, ValueIdx.truncf_apply, shapeCast_self]
  rw [shapeCast_self]
  show max ((∑ l : Fin 128, x0 (ix2 p l) * x1 (ix2 l k)) + x2 (ix2 (0 : Fin 1) k)) (Ideal.ofBits .f32 0x00000000#32) * x3 (ix2 k q) = _
  rw [Ideal.ofBits_zero_f32]

end Cert.KernelIdeal.Body

end
-- ==== Proof.HostPrefix.lean ====
/-
  What the region finds in the three small arrays the host prepares for it.

  Before the one kernel launch the host transposes the final weight, and reshapes each of the two bias vectors from
  [128] to a [1, 128] row. Those arrays are the kernel's windows 3, 2 and 4. Read at an index: the transposed weight
  at (k, j) is the weight at (j, k); a reshaped bias at (0, k) is the bias at k. (The aggregate, window 0's array, is
  left as it stands: it is the same term on the reference's side.)
-/
import proofs.«128109_j8443905704045_1_alg».proof.Proof.Gen.KernelIdeal.Frame
import Idealize.ShloMosaic.Lib.StableHlo.Run
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The region finds the final weight transposed. -/
theorem weightT_eq (c : Dev nD) : (V m c main_v29 : S128x128.Idx → EReal)
    = transpose S128x128 [1, 0] (m ((c : Thread nD τ).loc main_arg5)) transposes_S128x128_S128x128_1_0 := by
  unfold V
  after_results_simp

/-- The region finds the first bias as a [1, 128] row. -/
theorem biasRow_eq (c : Dev nD) : (V m c main_v30 : S1x128.Idx → EReal)
    = shapeCast S1x128 (m ((c : Thread nD τ).loc main_arg4)) shapeCasts_S128_S1x128 := by
  unfold V
  after_results_simp
  rfl

/-- The region finds the final bias as a [1, 128] row. -/
theorem fcBiasRow_eq (c : Dev nD) : (V m c main_v31 : S1x128.Idx → EReal)
    = shapeCast S1x128 (m ((c : Thread nD τ).loc main_arg6)) shapeCasts_S128_S1x128 := by
  unfold V
  after_results_simp
  rfl

/-- The transposed weight at (k, j) is the weight at (j, k). -/
theorem weightT_at (c : Dev nD) (k j : Fin 128) :
    V m c main_v29 (ix2 k j) = m ((c : Thread nD τ).loc main_arg5) (ix2 j k) := by
  rw [weightT_eq]
  exact transpose_ix2_apply _ _ k j

/-- The first bias row at (0, k) is the bias at k. -/
theorem biasRow_at (c : Dev nD) (k : Fin 128) :
    V m c main_v30 (ix2 (0 : Fin 1) k) = m ((c : Thread nD τ).loc main_arg4) (ix1 k) := by
  rw [biasRow_eq]
  exact shapeCast_a_1a_apply _ _ 0 k

/-- The final bias row at (0, j) is the bias at j. -/
theorem fcBiasRow_at (c : Dev nD) (j : Fin 128) :
    V m c main_v31 (ix2 (0 : Fin 1) j) = m ((c : Thread nD τ).loc main_arg6) (ix1 j) := by
  rw [fcBiasRow_eq]
  exact shapeCast_a_1a_apply _ _ 0 j

end Cert.KernelIdeal.Entry

end
-- ==== Proof.KernelDense.lean ====
/-
  The kernel's result array is the dense layer of the aggregate the region finds.

  The grid has 50 points. Point `t` reads rows 2000·t … 2000·t + 1999 of the aggregate (window 0) and the whole of the
  weight, the bias row, the transposed final weight and the final bias row (windows 1 to 4, each its array's one
  block), and writes rows 2000·t … 2000·t + 1999 of the result (window 5). What it writes at (p, q) of its block is the
  dense layer of row `p` of the block it read (the body's payload), that is of row 2000·t + p of the aggregate: the
  layer treats each node's row alone, so the block written is the block of ONE whole-array function, `layer`. The
  50 blocks tile the 100000 rows (row `r` lies in block `r / 2000`), so the array ends holding `layer` everywhere.
-/
import proofs.«128109_j8443905704045_1_alg».proof.Proof.Gen.KernelIdeal.Value
import proofs.«128109_j8443905704045_1_alg».proof.Proof.BodyDense
import proofs.«128109_j8443905704045_1_alg».proof.Proof.HostPrefix

noncomputable section

namespace Cert.KernelIdeal.DenseValue

open Cert.KernelIdeal Cert.KernelIdeal.Gen Idealize.ShloMosaic Idealize.ShloMosaic.TcCoe Idealize.SL.Sem
open Idealize.ShloMosaic.Pipeline (Dat)
open Idealize.ShloMosaic.ValueIdx Cert.GcnDense

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at every grid point, decided over the 50 points: the node windows (0 and 5) are at block `t` of
    the row axis and block 0 of the feature axis; every parameter window is at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row 2000·t + p of the array. -/
def nodeRow (t : Fin cfg0.N) (p : Fin 2000) : Fin 100000 :=
  ⟨t.val * 2000 + p.val, by have ht : t.val < 50 := (N_0 ▸ t.isLt : t.val < 50); have := p.isLt; omega⟩

/-! ## Reading an array through a window's block

Each lemma is stated for an arbitrary array `X` of the window's shape: the block at point `t`, read at coordinates
of the block, is `X` at the coordinates of the array. -/

/-- Window 0's block at point `t` is rows 2000·t … 2000·t + 1999 of its array. -/
theorem read_nodes (X : S100000x128.Idx → EReal) (t : Fin cfg0.N) (p : Fin 2000) (l : Fin 128) :
    ((cfg0.win 0).blk t).view.read (Elt Ideal) X (ix2 p l) = X (ix2 (nodeRow t p) l) := by
  obtain ⟨e0, e1, -⟩ := block_indices t
  have hemb : ((cfg0.win 0).blk t).view.emb (ix2 p l) = ix2 (nodeRow t p) l := by
    refine funext fun a => Fin.ext ?_
    match a with
    | ⟨0, _⟩ => show win0_0.index t (0 : Fin 2) * 2000 + 1 * p.val = t.val * 2000 + p.val; omega
    | ⟨1, _⟩ => show win0_0.index t (1 : Fin 2) * 128 + 1 * l.val = l.val; omega
  rw [View.read_apply, hemb]
  rfl

/-- Window 1's block is its whole [128, 128] array. -/
theorem read_weight (X : S128x128.Idx → EReal) (t : Fin cfg0.N) (l k : Fin 128) :
    ((cfg0.win 1).blk t).view.read (Elt Ideal) X (ix2 l k) = X (ix2 l k) := by
  obtain ⟨-, -, e0, e1, -⟩ := block_indices t
  have hemb : ((cfg0.win 1).blk t).view.emb (ix2 l k) = ix2 l k := by
    refine funext fun a => Fin.ext ?_
    match a with
    | ⟨0, _⟩ => show win0_1.index t (0 : Fin 2) * 128 + 1 * l.val = l.val; omega
    | ⟨1, _⟩ => show win0_1.index t (1 : Fin 2) * 128 + 1 * k.val = k.val; omega
  rw [View.read_apply, hemb]
  rfl

/-- Window 2's block is its whole [1, 128] row. -/
theorem read_bias (X : S1x128.Idx → EReal) (t : Fin cfg0.N) (k : Fin 128) :
    ((cfg0.win 2).blk t).view.read (Elt Ideal) X (ix2 (0 : Fin 1) k) = X (ix2 (0 : Fin 1) k) := by
  obtain ⟨-, -, -, -, e0, e1, -⟩ := block_indices t
  have hemb : ((cfg0.win 2).blk t).view.emb (ix2 (0 : Fin 1) k) = ix2 (0 : Fin 1) k := by
    refine funext fun a => Fin.ext ?_
    match a with
    | ⟨0, _⟩ => show win0_2.index t (0 : Fin 2) * 1 + 1 * 0 = 0; omega
    | ⟨1, _⟩ => show win0_2.index t (1 : Fin 2) * 128 + 1 * k.val = k.val; omega
  rw [View.read_apply, hemb]
  rfl

/-- Window 3's block is its whole [128, 128] array. -/
theorem read_fcWeight (X : S128x128.Idx → EReal) (t : Fin cfg0.N) (k j : Fin 128) :
    ((cfg0.win 3).blk t).view.read (Elt Ideal) X (ix2 k j) = X (ix2 k j) := by
  obtain ⟨-, -, -, -, -, -, e0, e1, -⟩ := block_indices t
  have hemb : ((cfg0.win 3).blk t).view.emb (ix2 k j) = ix2 k j := by
    refine funext fun a => Fin.ext ?_
    match a with
    | ⟨0, _⟩ => show win0_3.index t (0 : Fin 2) * 128 + 1 * k.val = k.val; omega
    | ⟨1, _⟩ => show win0_3.index t (1 : Fin 2) * 128 + 1 * j.val = j.val; omega
  rw [View.read_apply, hemb]
  rfl

/-- Window 4's block is its whole [1, 128] row. -/
theorem read_fcBias (X : S1x128.Idx → EReal) (t : Fin cfg0.N) (j : Fin 128) :
    ((cfg0.win 4).blk t).view.read (Elt Ideal) X (ix2 (0 : Fin 1) j) = X (ix2 (0 : Fin 1) j) := by
  obtain ⟨-, -, -, -, -, -, -, -, e0, e1, -⟩ := block_indices t
  have hemb : ((cfg0.win 4).blk t).view.emb (ix2 (0 : Fin 1) j) = ix2 (0 : Fin 1) j := by
    refine funext fun a => Fin.ext ?_
    match a with
    | ⟨0, _⟩ => show win0_4.index t (0 : Fin 2) * 1 + 1 * 0 = 0; omega
    | ⟨1, _⟩ => show win0_4.index t (1 : Fin 2) * 128 + 1 * j.val = j.val; omega
  rw [View.read_apply, hemb]
  rfl

/-- Window 5's block at point `t` is rows 2000·t … 2000·t + 1999 of the result. -/
theorem read_out (X : S100000x128.Idx → EReal) (t : Fin cfg0.N) (p : Fin 2000) (q : Fin 128) :
    ((cfg0.win 5).blk t).view.read (Elt Ideal) X (ix2 p q) = X (ix2 (nodeRow t p) q) := by
  obtain ⟨-, -, -, -, -, -, -, -, -, -, e0, e1⟩ := block_indices t
  have hemb : ((cfg0.win 5).blk t).view.emb (ix2 p q) = ix2 (nodeRow t p) q := by
    refine funext fun a => Fin.ext ?_
    match a with
    | ⟨0, _⟩ => show win0_5.index t (0 : Fin 2) * 2000 + 1 * p.val = t.val * 2000 + p.val; omega
    | ⟨1, _⟩ => show win0_5.index t (1 : Fin 2) * 128 + 1 * q.val = q.val; omega
  rw [View.read_apply, hemb]
  rfl

/-- What the body left in window 5's whole staging buffer is written back whole: the block is not cut. -/
theorem cut_out (W : S2000x128.Idx → EReal) (t : Fin cfg0.N) (p : Fin 2000) (q : Fin 128) :
    (cfg0.win 5).cut (grid0.coords t) W (ix2 p q) = W (ix2 p q) := rfl

/-! ## The blocks each point reads -/

/-- Window 0's block at point `t`, at (p, l): the aggregate at row 2000·t + p. -/
theorem nodes_at (c : Dev nD) (t : Fin cfg0.N) (p : Fin 2000) (l : Fin 128) :
    iblk m c 0 t (ix2 p l) = V m c main_v28 (ix2 (nodeRow t p) l) := by
  unfold iblk
  exact read_nodes (V m c main_v28) t p l

/-- Window 1's block is the whole weight, which no host operation wrote. -/
theorem weight_at (c : Dev nD) (t : Fin cfg0.N) (l k : Fin 128) :
    iblk m c 1 t (ix2 l k) = (m ((c : Thread nD τ).loc main_arg3)) (ix2 l k) := by
  unfold iblk
  exact (read_weight (V m c main_arg3) t l k).trans (congrFun (V_main_arg3 m c) (ix2 l k))

/-- Window 2's block is the bias row. -/
theorem bias_at (c : Dev nD) (t : Fin cfg0.N) (k : Fin 128) :
    iblk m c 2 t (ix2 (0 : Fin 1) k) = (m ((c : Thread nD τ).loc main_arg4)) (ix1 k) := by
  unfold iblk
  exact (read_bias (V m c main_v30) t k).trans (Entry.biasRow_at m c k)

/-- Window 3's block is the whole transposed final weight. -/
theorem fcWeight_at (c : Dev nD) (t : Fin cfg0.N) (k j : Fin 128) :
    iblk m c 3 t (ix2 k j) = (m ((c : Thread nD τ).loc main_arg5)) (ix2 j k) := by
  unfold iblk
  exact (read_fcWeight (V m c main_v29) t k j).trans (Entry.weightT_at m c k j)

/-- Window 4's block is the final bias row. -/
theorem fcBias_at (c : Dev nD) (t : Fin cfg0.N) (j : Fin 128) :
    iblk m c 4 t (ix2 (0 : Fin 1) j) = (m ((c : Thread nD τ).loc main_arg6)) (ix1 j) := by
  unfold iblk
  exact (read_fcBias (V m c main_v31) t j).trans (Entry.fcBiasRow_at m c j)

/-! ## What each point writes back -/

/-- What point `t` writes back is block `t` of the layer of the aggregate and the four parameter arrays: the body's stored
    value at a row of its block is the dense layer of that row, and that row is row 2000·t + p of the aggregate. -/
theorem flushed_eq (c : Dev nD) (t : Fin cfg0.N) :
    (dats m 0 c).flushed 5 t = ((cfg0.win 5).blk t).view.read (Elt Ideal) (layer (V m c main_v28) (m ((c : Thread nD τ).loc main_arg3)) (m ((c : Thread nD τ).loc main_arg4)) (m ((c : Thread nD τ).loc main_arg5)) (m ((c : Thread nD τ).loc main_arg6))) := by
  rw [Value.flushed5]
  unfold out0_5
  rw [View.canon_unit_zero zero_offsets]
  simp only [View.ld_unit_zero (S := S2000x128) zero_offsets, View.ld_unit_zero (S := S128x128) zero_offsets,
    View.ld_unit_zero (S := S1x128) zero_offsets]
  funext y
  obtain ⟨p, q, rfl⟩ : ∃ (p : Fin 2000) (q : Fin 128), y = ix2 p q := ⟨y 0, y 1, eq_ix2 y⟩
  rw [read_out, layer_ix2]
  refine (cut_out (k0_pay1 (F := Ideal) (iblk m c 0 t) (iblk m c 1 t) (iblk m c 2 t) (iblk m c 3 t) (iblk m c 4 t)) t p q).trans ?_
  refine (Body.stored_at (iblk m c 0 t) (iblk m c 1 t) (iblk m c 2 t) (iblk m c 3 t) (iblk m c 4 t) p q).trans ?_
  exact denseRow_congr q (fun l => nodes_at m c t p l) (fun l k => weight_at m c t l k) (fun k => bias_at m c t k)
    (fun k => fcWeight_at m c t k q) (fcBias_at m c t q)

/-! ## The blocks tile the array -/

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v32).slice (win0_5.rect t)).set ↔ _
  rw [View.set_slice_whole, Rect.mem_set_unit]
  exact Iff.rfl

/-- Every index of the result lies in the block of point `row / 2000`, which writes back. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  have ht : t.val = (i 0).val / 2000 := rfl
  obtain ⟨-, -, -, -, -, -, -, -, -, -, e0, e1⟩ := block_indices t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The result array after the run: the blocks tile it, so it holds the layer of the aggregate (as the region finds it)
    and of the four parameter arrays at every index. -/
theorem final (c : Dev nD) : (dats m 0 c).arrAt 5 cfg0.N = (layer (V m c main_v28) (m ((c : Thread nD τ).loc main_arg3)) (m ((c : Thread nD τ).loc main_arg4)) (m ((c : Thread nD τ).loc main_arg5)) (m ((c : Thread nD τ).loc main_arg6))) :=
  (dats m 0 c).arrAt_eq_of_cover 5 (layer (V m c main_v28) (m ((c : Thread nD τ).loc main_arg3)) (m ((c : Thread nD τ).loc main_arg4)) (m ((c : Thread nD τ).loc main_arg5)) (m ((c : Thread nD τ).loc main_arg6))) (fun t _ => flushed_eq m c t) cover

/-- The kernel's run: it terminates with the result at that layer and the arguments unchanged. -/
theorem run : θ_run defs (onTc (τ := τ) (main (F := Ideal))) ⟨m, fun _ => 0, ρ⟩ fun r => ∀ c : Dev nD,
      r.2.mem ((c : Thread nD τ).loc main_v32) = (layer (V m c main_v28) (m ((c : Thread nD τ).loc main_arg3)) (m ((c : Thread nD τ).loc main_arg4)) (m ((c : Thread nD τ).loc main_arg5)) (m ((c : Thread nD τ).loc main_arg6)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.DenseValue

end
-- ==== Proof.lean ====
/-
  A graph-convolution layer: the kernel against its reference, on the extended reals.

  Both programs begin with the same host computation of the normalised aggregate `h` over the edges (out- and
  in-degrees by scatter-add, their clamped inverse square roots, the gather of the scaled features along the source
  nodes, the scatter-add into the destination nodes, the scaling by the destination norm). From `h` the reference
  computes, on the whole [100000, 128] array,

      relu (h · W + b) · fc_Wᵀ + fc_b,

  and the kernel computes the same in 50 blocks of 2000 node rows, each block through the matrix unit after a change
  of format that is the identity on extended reals, with the biases reshaped to rows and the final weight transposed
  beforehand on the host.

  The two agree because the dense layer treats each node's row alone (Proof/DenseSpec.lean, `denseRow` and `layer`):
  the reference's result, read at a node and a feature, is `denseRow` of that node's row of the aggregate
  (Proof/RefDense.lean); what the kernel body stores at a row of its block is `denseRow` of that row of the block it
  loaded (Proof/BodyDense.lean), the parameter windows being whole arrays the host prepared (Proof/HostPrefix.lean);
  and the 50 row blocks tile the result (Proof/KernelDense.lean). Both sums run over the same 128 coordinates in the
  same order, so no law of arithmetic is needed beyond reading each operation at an index, and the precondition
  (finite inputs) is not used. The aggregate is never opened: it is one term, the same on both sides
  (`aggregate_eq` below). The three frames are the generated ones; the idealization rewrote nothing, so the
  fourth conjunct is `True`.
-/
import proofs.«128109_j8443905704045_1_alg».proof.Defs
import proofs.«128109_j8443905704045_1_alg».proof.Proof.Gen.Kernel
import proofs.«128109_j8443905704045_1_alg».proof.Proof.Gen.Kernel.Skeleton
import proofs.«128109_j8443905704045_1_alg».proof.Proof.Gen.Kernel.Launch
import proofs.«128109_j8443905704045_1_alg».proof.Proof.Gen.Kernel.Points
import proofs.«128109_j8443905704045_1_alg».proof.Proof.Gen.Kernel.Frame
import proofs.«128109_j8443905704045_1_alg».proof.Proof.Gen.KernelIdeal
import proofs.«128109_j8443905704045_1_alg».proof.Proof.Gen.KernelIdeal.Skeleton
import proofs.«128109_j8443905704045_1_alg».proof.Proof.Gen.KernelIdeal.Launch
import proofs.«128109_j8443905704045_1_alg».proof.Proof.Gen.KernelIdeal.Points
import proofs.«128109_j8443905704045_1_alg».proof.Proof.Gen.KernelIdeal.Frame
import proofs.«128109_j8443905704045_1_alg».proof.Proof.Gen.ReferenceIdeal
import proofs.«128109_j8443905704045_1_alg».proof.Proof.Gen.Pre_finite_inputs
import proofs.«128109_j8443905704045_1_alg».proof.Proof.Gen.KernelIdeal.Value
import proofs.«128109_j8443905704045_1_alg».proof.Proof.Gen.ReferenceIdeal.Run
import proofs.«128109_j8443905704045_1_alg».proof.Proof.Gen.ReferenceIdeal.Read
import proofs.«128109_j8443905704045_1_alg».proof.Proof.RefDense
import proofs.«128109_j8443905704045_1_alg».proof.Proof.KernelDense
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Idealize.ShloMosaic.StableHlo Cert.GcnDense

/-- The aggregate the kernel's region finds in window 0's array is the reference's aggregate of the same three
    argument arrays: the two programs apply the same host operations, in the same order, with the same constants. -/
theorem aggregate_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v28 : Cert.KernelIdeal.S100000x128.Idx → EReal)
      = Cert.ReferenceIdeal.Read.val_main_v28 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) := by
  unfold Cert.KernelIdeal.Gen.V
  after_results_simp
  rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result at the layer of the one aggregate and the four parameter arrays. -/
theorem algebraic : Cert.algebraic_KernelIdeal_ReferenceIdeal := by
  intro m ρ m' ρ' _ hagree
  refine ⟨fun c => layer (Cert.ReferenceIdeal.Read.val_main_v28 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)))
    (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩)
      (Cert.KernelIdeal.DenseValue.run m ρ)
    rw [aggregate_eq m c]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v38_eq, Cert.ReferenceIdeal.RefValue.result_eq, (hagree c).1, (hagree c).2.1,
      (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
